-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x1 .f32) (main_arg7 : FVec F S1 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S20000x128 .f32) (main_arg2 : IVec S2x500000 32) (main_arg3 : IVec S2x500000 32) (main_arg4 : FVec F S256x128 .f32) (main_arg5 : FVec F S128 .f32) (main_arg6 : FVec F S128x1 .f32) (main_arg7 : FVec F S1 .f32) (main_arg8 : FVec F S256x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x500000x128 : Shape := ⟨3, ![1, 500000, 128]⟩
abbrev S2x500000x128 : Shape := ⟨3, ![2, 500000, 128]⟩
abbrev S128x128 : Shape := ⟨2, ![128, 128]⟩
abbrev S1x128x128 : Shape := ⟨3, ![1, 128, 128]⟩
abbrev S2x128x128 : Shape := ⟨3, ![2, 128, 128]⟩
abbrev S1x128 : Shape := ⟨2, ![1, 128]⟩
abbrev S1x1x128 : Shape := ⟨3, ![1, 1, 128]⟩
abbrev S2x1x128 : Shape := ⟨3, ![2, 1, 128]⟩
abbrev S1x128x1 : Shape := ⟨3, ![1, 128, 1]⟩
abbrev S2x128x1 : Shape := ⟨3, ![2, 128, 1]⟩
abbrev S1x1 : Shape := ⟨2, ![1, 1]⟩
abbrev S1x1x1 : Shape := ⟨3, ![1, 1, 1]⟩
abbrev S2x1x1 : Shape := ⟨3, ![2, 1, 1]⟩
abbrev S2x500000x1 : Shape := ⟨3, ![2, 500000, 1]⟩
abbrev S1x10000x128 : Shape := ⟨3, ![1, 10000, 128]⟩
abbrev S1x10000x1 : Shape := ⟨3, ![1, 10000, 1]⟩
abbrev S10000x128 : Shape := ⟨2, ![10000, 128]⟩
abbrev S10000x1 : Shape := ⟨2, ![10000, 1]⟩

abbrev nBuf : Space → Nat
  | .hbm => 88
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000x128, .bf16⟩
  | .hbm, ⟨13, _⟩ => ⟨S20000x128, .bf16⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .bf16⟩
  | .hbm, ⟨25, _⟩ => ⟨S1x500000, .i32⟩
  | .hbm, ⟨26, _⟩ => ⟨S500000, .i32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .bf16⟩
  | .hbm, ⟨36, _⟩ => ⟨S1x500000, .i32⟩
  | .hbm, ⟨37, _⟩ => ⟨S500000, .i32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .bf16⟩
  | .hbm, ⟨47, _⟩ => ⟨S1x500000, .i32⟩
  | .hbm, ⟨48, _⟩ => ⟨S500000, .i32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x128, .bf16⟩
  | .hbm, ⟨58, _⟩ => ⟨S1x500000x128, .bf16⟩
  | .hbm, ⟨59, _⟩ => ⟨S1x500000x128, .bf16⟩
  | .hbm, ⟨60, _⟩ => ⟨S2x500000x128, .bf16⟩
  | .hbm, ⟨61, _⟩ => ⟨S1x500000x128, .bf16⟩
  | .hbm, ⟨62, _⟩ => ⟨S1x500000x128, .bf16⟩
  | .hbm, ⟨63, _⟩ => ⟨S2x500000x128, .bf16⟩
  | .hbm, ⟨64, _⟩ => ⟨S128x128, .f32⟩
  | .hbm, ⟨65, _⟩ => ⟨S128x128, .f32⟩
  | .hbm, ⟨66, _⟩ => ⟨S1x128x128, .f32⟩
  | .hbm, ⟨67, _⟩ => ⟨S1x128x128, .f32⟩
  | .hbm, ⟨68, _⟩ => ⟨S2x128x128, .f32⟩
  | .hbm, ⟨69, _⟩ => ⟨S128x128, .f32⟩
  | .hbm, ⟨70, _⟩ => ⟨S128x128, .f32⟩
  | .hbm, ⟨71, _⟩ => ⟨S1x128x128, .f32⟩
  | .hbm, ⟨72, _⟩ => ⟨S1x128x128, .f32⟩
  | .hbm, ⟨73, _⟩ => ⟨S2x128x128, .f32⟩
  | .hbm, ⟨74, _⟩ => ⟨S1x128, .f32⟩
  | .hbm, ⟨75, _⟩ => ⟨S1x128, .f32⟩
  | .hbm, ⟨76, _⟩ => ⟨S1x1x128, .f32⟩
  | .hbm, ⟨77, _⟩ => ⟨S1x1x128, .f32⟩
  | .hbm, ⟨78, _⟩ => ⟨S2x1x128, .f32⟩
  | .hbm, ⟨79, _⟩ => ⟨S1x128x1, .f32⟩
  | .hbm, ⟨80, _⟩ => ⟨S1x128x1, .f32⟩
  | .hbm, ⟨81, _⟩ => ⟨S2x128x1, .f32⟩
  | .hbm, ⟨82, _⟩ => ⟨S1x1, .f32⟩
  | .hbm, ⟨83, _⟩ => ⟨S1x1, .f32⟩
  | .hbm, ⟨84, _⟩ => ⟨S1x1x1, .f32⟩
  | .hbm, ⟨85, _⟩ => ⟨S1x1x1, .f32⟩
  | .hbm, ⟨86, _⟩ => ⟨S2x1x1, .f32⟩
  | .hbm, ⟨87, _⟩ => ⟨S2x500000x1, .f32⟩
  | .local _ .vmem, ⟨0, _⟩ => ⟨S1x10000x128, .bf16⟩
  | .local _ .vmem, ⟨1, _⟩ => ⟨S1x10000x128, .bf16⟩
  | .local _ .vmem, ⟨2, _⟩ => ⟨S1x10000x128, .bf16⟩
  | .local _ .vmem, ⟨3, _⟩ => ⟨S1x10000x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x128x1, .f32⟩
  | .local _ .vmem, ⟨11, _⟩ => ⟨S1x128x1, .f32⟩
  | .local _ .vmem, ⟨12, _⟩ => ⟨S1x1x1, .f32⟩
  | .local _ .vmem, ⟨13, _⟩ => ⟨S1x1x1, .f32⟩
  | .local _ .vmem, ⟨14, _⟩ => ⟨S1x10000x1, .f32⟩
  | .local _ .vmem, ⟨15, _⟩ => ⟨S1x10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S500000x128_S1x500000x128_1_2 : S500000x128.BroadcastsInDim S1x500000x128 (![1, 2] : Fin 2 → Fin S1x500000x128.rank)
  concatenates_S1x500000x128_S1x500000x128_S2x500000x128_d0 : Shape.Concatenates [S1x500000x128, S1x500000x128] S2x500000x128 0
  slices_S256x128_S128x128_0_0 : S256x128.Slices ![0, 0] S128x128
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  slices_S256x128_S128x128_128_0 : S256x128.Slices ![128, 0] S128x128
  shapeCasts_S128_S1x128 : S128.ShapeCasts S1x128
  bcast_S1x128_S1x1x128_1_2 : S1x128.BroadcastsInDim S1x1x128 (![1, 2] : Fin 2 → Fin S1x1x128.rank)
  concatenates_S1x1x128_S1x1x128_S2x1x128_d0 : Shape.Concatenates [S1x1x128, S1x1x128] S2x1x128 0
  bcast_S128x1_S1x128x1_1_2 : S128x1.BroadcastsInDim S1x128x1 (![1, 2] : Fin 2 → Fin S1x128x1.rank)
  concatenates_S1x128x1_S1x128x1_S2x128x1_d0 : Shape.Concatenates [S1x128x1, S1x128x1] S2x128x1 0
  shapeCasts_S1_S1x1 : S1.ShapeCasts S1x1
  bcast_S1x1_S1x1x1_1_2 : S1x1.BroadcastsInDim S1x1x1 (![1, 2] : Fin 2 → Fin S1x1x1.rank)
  concatenates_S1x1x1_S1x1x1_S2x1x1_d0 : Shape.Concatenates [S1x1x1, S1x1x1] S2x1x1 0
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x128_S10000x128 : S1x128.Broadcasts S10000x128
  broadcasts_S1x1_S10000x1 : S1x1.Broadcasts S10000x1
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  shapeCasts_S10000x1_S1x10000x1 : S10000x1.ShapeCasts S1x10000x1
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S2x500000x128.size a
  hwx0_0 : ∀ i : grid0.Coords, EltTy.bits .bf16 = 32 ∨ (Rect.block (s := S2x500000x128) S1x10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x128.size a ≤ S2x500000x128.size a
  hwx0_1 : ∀ i : grid0.Coords, EltTy.bits .bf16 = 32 ∨ (Rect.block (s := S2x500000x128) S1x10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S2x128x1.size a
  hwx0_5 : ∀ i : grid0.Coords, EltTy.bits .f32 = 32 ∨ (Rect.block (s := S2x128x1) S1x128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x10000x1.size a ≤ S2x500000x1.size a
  hwx0_7 : ∀ i : grid0.Coords, EltTy.bits .f32 = 32 ∨ (Rect.block (s := S2x500000x1) S1x10000x1.size (cc0_transform_7 i) (hinb0_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v40) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1x10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v61) S1x128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v66) S1x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v67) S1x10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x500000 : Shape := ⟨2, ![2, 500000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x128 : Shape := ⟨2, ![1, 128]⟩
abbrev S1x1 : Shape := ⟨2, ![1, 1]⟩
abbrev S1x500000x1 : Shape := ⟨3, ![1, 500000, 1]⟩
abbrev S2x500000x1 : Shape := ⟨3, ![2, 500000, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x500000, .i32⟩
  | .hbm, ⟨3, _⟩ => ⟨S2x500000, .i32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S1x500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S500000x256, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000x128, .f32⟩
  | .hbm, ⟨41, _⟩ => ⟨S500000x128, .f32⟩
  | .hbm, ⟨42, _⟩ => ⟨S500000x1, .f32⟩
  | .hbm, ⟨43, _⟩ => ⟨S1x1, .f32⟩
  | .hbm, ⟨44, _⟩ => ⟨S500000x1, .f32⟩
  | .hbm, ⟨45, _⟩ => ⟨S500000x1, .f32⟩
  | .hbm, ⟨46, _⟩ => ⟨S1x500000, .i32⟩
  | .hbm, ⟨47, _⟩ => ⟨S500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S1x500000, .i32⟩
  | .hbm, ⟨58, _⟩ => ⟨S500000, .i32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x128, .f32⟩
  | .hbm, ⟨68, _⟩ => ⟨S500000x256, .f32⟩
  | .hbm, ⟨69, _⟩ => ⟨S500000x128, .f32⟩
  | .hbm, ⟨70, _⟩ => ⟨S1x128, .f32⟩
  | .hbm, ⟨71, _⟩ => ⟨S500000x128, .f32⟩
  | .hbm, ⟨72, _⟩ => ⟨S500000x128, .f32⟩
  | .hbm, ⟨73, _⟩ => ⟨S_, .f32⟩
  | .hbm, ⟨74, _⟩ => ⟨S500000x128, .f32⟩
  | .hbm, ⟨75, _⟩ => ⟨S500000x128, .f32⟩
  | .hbm, ⟨76, _⟩ => ⟨S500000x1, .f32⟩
  | .hbm, ⟨77, _⟩ => ⟨S1x1, .f32⟩
  | .hbm, ⟨78, _⟩ => ⟨S500000x1, .f32⟩
  | .hbm, ⟨79, _⟩ => ⟨S500000x1, .f32⟩
  | .hbm, ⟨80, _⟩ => ⟨S1x500000x1, .f32⟩
  | .hbm, ⟨81, _⟩ => ⟨S1x500000x1, .f32⟩
  | .hbm, ⟨82, _⟩ => ⟨S2x500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S500000x1_S1x500000x1_1_2 : S500000x1.BroadcastsInDim S1x500000x1 (![1, 2] : Fin 2 → Fin S1x500000x1.rank)
  concatenates_S1x500000x1_S1x500000x1_S2x500000x1_d0 : Shape.Concatenates [S1x500000x1, S1x500000x1] S2x500000x1 0
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Stacked.lean ====
/-
  Two arrays stacked along a new leading axis, read at an index.

  `jnp.stack [x, y]` of two `[a, b]` arrays lowers to: give each a leading axis of extent one, then join the two along that
  axis into a `[2, a, b]` array. Entry `(0, p, q)` of the result is `x (p, q)` and entry `(1, p, q)` is `y (p, q)`.
-/
import Idealize.ShloMosaic.Lib.Pipeline.Value
import Idealize.ShloMosaic.Lib.ValueIdx

noncomputable section

namespace Cert.Stacked

open Idealize.ShloMosaic Idealize.ShloMosaic.ValueIdx

variable {α : Type} {a b : Nat}

/-- An `[a, b]` array given a leading unit axis, read at `(0, p, q)`. -/
theorem lead_apply (hb : (⟨2, ![a, b]⟩ : Shape).BroadcastsInDim ⟨3, ![1, a, b]⟩ (![1, 2] : Fin 2 → Fin 3))
    (x : (⟨2, ![a, b]⟩ : Shape).Idx → α) (p : Fin a) (q : Fin b) :
    broadcastInDim (⟨3, ![1, a, b]⟩ : Shape) ![1, 2] hb x (ix3 (0 : Fin 1) p q) = x (ix2 p q) :=
  broadcastInDim_apply _ hb x (ix3 (0 : Fin 1) p q) (ix2 p q) (fun d => by
    match d with
    | ⟨0, _⟩ =>
      show p.val = if a = 1 then 0 else p.val
      split_ifs with h
      · have := p.isLt; omega
      · rfl
    | ⟨1, _⟩ =>
      show q.val = if b = 1 then 0 else q.val
      split_ifs with h
      · have := q.isLt; omega
      · rfl)

/-- The stack of `x` on `y` at `(0, p, q)` is `x (p, q)`. -/
theorem stack_zero (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) (p : Fin a) (q : Fin b) :
    concatenate (⟨3, ![2, a, b]⟩ : Shape) 0
        [⟨⟨3, ![1, a, b]⟩, broadcastInDim (⟨3, ![1, a, b]⟩ : Shape) ![1, 2] hb x⟩,
         ⟨⟨3, ![1, a, b]⟩, broadcastInDim (⟨3, ![1, a, b]⟩ : Shape) ![1, 2] hb y⟩] hc (ix3 (0 : Fin 2) p q)
      = x (ix2 p q) :=
  (concatenate_pair_apply_left (t := ⟨3, ![2, a, b]⟩) (s₁ := ⟨3, ![1, a, b]⟩) (s₂ := ⟨3, ![1, a, b]⟩) (0 : Fin 3) _ _ hc
    (ix3 (0 : Fin 2) p q) rfl (ix3 (0 : Fin 1) p q)
    (fun d => by match d with | ⟨0, _⟩ => rfl | ⟨1, _⟩ => rfl | ⟨2, _⟩ => rfl)).trans (lead_apply hb x p q)

/-- The stack of `x` on `y` at `(1, p, q)` is `y (p, q)`. -/
theorem stack_one (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) (p : Fin a) (q : Fin b) :
    concatenate (⟨3, ![2, a, b]⟩ : Shape) 0
        [⟨⟨3, ![1, a, b]⟩, broadcastInDim (⟨3, ![1, a, b]⟩ : Shape) ![1, 2] hb x⟩,
         ⟨⟨3, ![1, a, b]⟩, broadcastInDim (⟨3, ![1, a, b]⟩ : Shape) ![1, 2] hb y⟩] hc (ix3 (1 : Fin 2) p q)
      = y (ix2 p q) :=
  (concatenate_pair_apply_right (t := ⟨3, ![2, a, b]⟩) (s₁ := ⟨3, ![1, a, b]⟩) (s₂ := ⟨3, ![1, a, b]⟩) (0 : Fin 3) _ _ hc
    (ix3 (1 : Fin 2) p q) rfl rfl (ix3 (0 : Fin 1) p q)
    (fun d hd => by
      match d with
      | ⟨0, _⟩ => exact absurd rfl hd
      | ⟨1, _⟩ => rfl
      | ⟨2, _⟩ => rfl)
    (by show (0 : Nat) + 1 = 1; rfl)).trans (lead_apply hb y p q)

/-! ## The stack under one name, read at any index -/

/-- Two `[a, b]` arrays stacked: each given a leading unit axis, then joined along it. -/
abbrev stackOf (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) : (⟨3, ![2, a, b]⟩ : Shape).Idx → α :=
  concatenate (⟨3, ![2, a, b]⟩ : Shape) 0
    [⟨⟨3, ![1, a, b]⟩, broadcastInDim (⟨3, ![1, a, b]⟩ : Shape) ![1, 2] hb x⟩,
     ⟨⟨3, ![1, a, b]⟩, broadcastInDim (⟨3, ![1, a, b]⟩ : Shape) ![1, 2] hb y⟩] hc

/-- At an index whose leading coordinate is 0 the stack reads its first array. -/
theorem stackOf_at0 (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) (i : (⟨3, ![2, a, b]⟩ : Shape).Idx) (p : Fin a) (q : Fin b)
    (h0 : (i 0).val = 0) (h1 : (i 1).val = p.val) (h2 : (i 2).val = q.val) :
    stackOf hb hc x y i = x (ix2 p q) := by
  have hi : i = ix3 (0 : Fin 2) p q :=
    funext fun d => Fin.ext (by match d with | ⟨0, _⟩ => exact h0 | ⟨1, _⟩ => exact h1 | ⟨2, _⟩ => exact h2)
  rw [hi]
  exact stack_zero hb hc x y p q

/-- At an index whose leading coordinate is 1 the stack reads its second array. -/
theorem stackOf_at1 (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) (i : (⟨3, ![2, a, b]⟩ : Shape).Idx) (p : Fin a) (q : Fin b)
    (h0 : (i 0).val = 1) (h1 : (i 1).val = p.val) (h2 : (i 2).val = q.val) :
    stackOf hb hc x y i = y (ix2 p q) := by
  have hi : i = ix3 (1 : Fin 2) p q :=
    funext fun d => Fin.ext (by match d with | ⟨0, _⟩ => exact h0 | ⟨1, _⟩ => exact h1 | ⟨2, _⟩ => exact h2)
  rw [hi]
  exact stack_one hb hc x y p q

end Cert.Stacked

end
-- ==== Proof.KernelWindows.lean ====
/-
  What the kernel's seven input windows find in their arrays.

  Before the one region the program gathers, for each relation, the source rows and the destination rows of its 500000
  edges from the node tables (narrowed to bf16 first: the identity on extended reals), cuts each relation's 256 × 128
  first-layer weight into its upper and lower 128 rows, and then stacks relation 0's piece on relation 1's for every
  operand: source rows, destination rows, upper weights, lower weights, first biases, second-layer weights, second biases.
  Each theorem here states one window's array as that stack. The gathered rows are written as the reference's own terms
  for the same gathers: the index normalisation and the gather are the same operations on the same arguments.
-/
import proofs.«112337_j5488968204770_2_alg».proof.Proof.Gen.KernelIdeal.Frame
import proofs.«112337_j5488968204770_2_alg».proof.Proof.Gen.ReferenceIdeal.Read
import proofs.«112337_j5488968204770_2_alg».proof.Proof.Stacked
import Idealize.ShloMosaic.Lib.StableHlo.Run

noncomputable section

namespace Cert.KernelWindows

open Cert.KernelIdeal Cert.KernelIdeal.Gen Cert.Stacked
open Idealize.ShloMosaic Idealize.ShloMosaic.TcCoe Idealize.SL.Sem Idealize.ShloMosaic.StableHlo

variable (m : (ℓ : Loc nD τ sig) → Buf (Elt Ideal) ℓ) (c : Dev nD)

/-! ## The argument arrays, by role -/

/-- The gene embeddings, 100000 rows of 128. -/
abbrev zGene : S100000x128.Idx → EReal := m ((c : Thread nD τ).loc main_arg0)
/-- The disease embeddings, 20000 rows of 128. -/
abbrev zDisease : S20000x128.Idx → EReal := m ((c : Thread nD τ).loc main_arg1)
/-- The gene-to-disease edges: row 0 the source genes, row 1 the destination diseases. -/
abbrev edgesGD : IVec S2x500000 32 := m ((c : Thread nD τ).loc main_arg2)
/-- The gene-to-gene edges. -/
abbrev edgesGG : IVec S2x500000 32 := m ((c : Thread nD τ).loc main_arg3)
abbrev w1GD : S256x128.Idx → EReal := m ((c : Thread nD τ).loc main_arg4)
abbrev b1GD : S128.Idx → EReal := m ((c : Thread nD τ).loc main_arg5)
abbrev w2GD : S128x1.Idx → EReal := m ((c : Thread nD τ).loc main_arg6)
abbrev b2GD : S1.Idx → EReal := m ((c : Thread nD τ).loc main_arg7)
abbrev w1GG : S256x128.Idx → EReal := m ((c : Thread nD τ).loc main_arg8)
abbrev b1GG : S128.Idx → EReal := m ((c : Thread nD τ).loc main_arg9)
abbrev w2GG : S128x1.Idx → EReal := m ((c : Thread nD τ).loc main_arg10)
abbrev b2GG : S1.Idx → EReal := m ((c : Thread nD τ).loc main_arg11)

/-- The gathered rows, as the reference writes the same four gathers. -/
abbrev srcGD : S500000x128.Idx → EReal := Cert.ReferenceIdeal.Read.val_main_v8 (F := Ideal) (zGene m c) (edgesGD m c)
abbrev dstGD : S500000x128.Idx → EReal := Cert.ReferenceIdeal.Read.val_main_v17 (F := Ideal) (zDisease m c) (edgesGD m c)
abbrev srcGG : S500000x128.Idx → EReal := Cert.ReferenceIdeal.Read.val_main_v37 (F := Ideal) (zGene m c) (edgesGG m c)
abbrev dstGG : S500000x128.Idx → EReal := Cert.ReferenceIdeal.Read.val_main_v46 (F := Ideal) (zGene m c) (edgesGG m c)

/-! ## Each window's array -/

set_option maxRecDepth 8192 in
set_option maxHeartbeats 4000000 in
/-- Window 0: relation 0's gathered source rows stacked on relation 1's. -/
theorem source_rows :
    (V m c main_v40 : S2x500000x128.Idx → EReal)
      = stackOf bcast_S500000x128_S1x500000x128_1_2 concatenates_S1x500000x128_S1x500000x128_S2x500000x128_d0
          (srcGD m c) (srcGG m c) := by
  dsimp only [V, hostOps0]
  after_results_simp
  rfl

set_option maxRecDepth 8192 in
set_option maxHeartbeats 4000000 in
/-- Window 1: relation 0's gathered destination rows stacked on relation 1's. -/
theorem dest_rows :
    (V m c main_v43 : S2x500000x128.Idx → EReal)
      = stackOf bcast_S500000x128_S1x500000x128_1_2 concatenates_S1x500000x128_S1x500000x128_S2x500000x128_d0
          (dstGD m c) (dstGG m c) := by
  dsimp only [V, hostOps0]
  after_results_simp
  rfl

set_option maxRecDepth 8192 in
set_option maxHeartbeats 4000000 in
/-- Window 2: the upper 128 rows of each relation's first-layer weight. -/
theorem upper_weights :
    (V m c main_v48 : S2x128x128.Idx → EReal)
      = stackOf bcast_S128x128_S1x128x128_1_2 concatenates_S1x128x128_S1x128x128_S2x128x128_d0
          (extractStridedSlice S128x128 ![0, 0] (w1GD m c) slices_S256x128_S128x128_0_0)
          (extractStridedSlice S128x128 ![0, 0] (w1GG m c) slices_S256x128_S128x128_0_0) := by
  dsimp only [V, hostOps0]
  after_results_simp
  rfl

set_option maxRecDepth 8192 in
set_option maxHeartbeats 4000000 in
/-- Window 3: the lower 128 rows of each relation's first-layer weight. -/
theorem lower_weights :
    (V m c main_v53 : S2x128x128.Idx → EReal)
      = stackOf bcast_S128x128_S1x128x128_1_2 concatenates_S1x128x128_S1x128x128_S2x128x128_d0
          (extractStridedSlice S128x128 ![128, 0] (w1GD m c) slices_S256x128_S128x128_128_0)
          (extractStridedSlice S128x128 ![128, 0] (w1GG m c) slices_S256x128_S128x128_128_0) := by
  dsimp only [V, hostOps0]
  after_results_simp
  rfl

set_option maxRecDepth 8192 in
set_option maxHeartbeats 4000000 in
/-- Window 4: each relation's first bias as one row. -/
theorem first_biases :
    (V m c main_v58 : S2x1x128.Idx → EReal)
      = stackOf bcast_S1x128_S1x1x128_1_2 concatenates_S1x1x128_S1x1x128_S2x1x128_d0
          (shapeCast S1x128 (b1GD m c) shapeCasts_S128_S1x128) (shapeCast S1x128 (b1GG m c) shapeCasts_S128_S1x128) := by
  dsimp only [V, hostOps0]
  after_results_simp
  rfl

set_option maxRecDepth 8192 in
set_option maxHeartbeats 4000000 in
/-- Window 5: each relation's second-layer weight column. -/
theorem second_weights :
    (V m c main_v61 : S2x128x1.Idx → EReal)
      = stackOf bcast_S128x1_S1x128x1_1_2 concatenates_S1x128x1_S1x128x1_S2x128x1_d0 (w2GD m c) (w2GG m c) := by
  dsimp only [V, hostOps0]
  after_results_simp
  rfl

set_option maxRecDepth 8192 in
set_option maxHeartbeats 4000000 in
/-- Window 6: each relation's second bias. -/
theorem second_biases :
    (V m c main_v66 : S2x1x1.Idx → EReal)
      = stackOf bcast_S1x1_S1x1x1_1_2 concatenates_S1x1x1_S1x1x1_S2x1x1_d0
          (shapeCast S1x1 (b2GD m c) shapeCasts_S1_S1x1) (shapeCast S1x1 (b2GG m c) shapeCasts_S1_S1x1) := by
  dsimp only [V, hostOps0]
  after_results_simp
  rfl

end Cert.KernelWindows

end
-- ==== Proof.EdgeScore.lean ====
/-
  One edge's score, as mathematics. An edge carries two embedding rows of length 128, `s` (its source node) and `d` (its
  destination node). The decoder is a two-layer perceptron on their concatenation `z = s ++ d` (length 256):

      h j   = max (∑ k < 256, z k · W1 k j + b1 j) 0          (128 hidden units)
      score = ∑ j < 128, h j · w2 j + b2

  Because `z` is a concatenation, the first layer's sum over 256 terms is the sum over the first 128 rows of `W1` against
  `s` plus the sum over the last 128 rows against `d`. That splitting is the only algebra in this certificate: it holds in
  any commutative additive monoid, so on the extended reals it needs no finiteness.
-/
import Idealize.ShloMosaic.PureOps.Ideal
import Idealize.ShloMosaic.Lib.ValueIdx

noncomputable section

open scoped BigOperators

namespace Cert.EdgeScore

open Idealize.ShloMosaic Idealize.ShloMosaic.ValueIdx

/-- Row `k` of the upper half of a 256-row matrix. -/
def lo (k : Fin 128) : Fin 256 := ⟨k.val, by have := k.isLt; omega⟩
/-- Row `k` of the lower half of a 256-row matrix: row `128 + k`. -/
def hi (k : Fin 128) : Fin 256 := ⟨128 + k.val, by have := k.isLt; omega⟩

theorem lo_val (k : Fin 128) : (lo k).val = k.val := rfl
theorem hi_val (k : Fin 128) : (hi k).val = 128 + k.val := rfl

/-- A sum over 256 terms is the sum over the first 128 plus the sum over the last 128. -/
theorem sum_halves {M : Type*} [AddCommMonoid M] (c : Fin 256 → M) :
    ∑ k : Fin 256, c k = ∑ k : Fin 128, c (lo k) + ∑ k : Fin 128, c (hi k) :=
  Fin.sum_univ_add (a := 128) (b := 128) c

/-- The score of one edge from its source row `s`, its destination row `d`, the two halves `ws`, `wd` of the first
    layer's weight (the rows that meet `s` and the rows that meet `d`), the first bias `b`, the second layer's weight
    column `w2` and bias `b2`. -/
def score (s d : Fin 128 → EReal) (ws wd : Fin 128 → Fin 128 → EReal) (b w2 : Fin 128 → EReal) (b2 : EReal) : EReal :=
  (∑ j : Fin 128, max ((∑ k : Fin 128, s k * ws k j) + (∑ k : Fin 128, d k * wd k j) + b j) 0 * w2 j) + b2

/-- The same score with the first layer written as ONE sum over the 256 entries of the concatenated row `z` against the
    whole weight `w`: what a reference that concatenates first computes. -/
theorem score_of_concat (z : Fin 256 → EReal) (w : Fin 256 → Fin 128 → EReal) (b w2 : Fin 128 → EReal) (b2 : EReal) :
    (∑ j : Fin 128, max ((∑ k : Fin 256, z k * w k j) + b j) 0 * w2 j) + b2
      = score (fun k => z (lo k)) (fun k => z (hi k)) (fun k j => w (lo k) j) (fun k j => w (hi k) j) b w2 b2 := by
  unfold score
  congr 1
  refine Finset.sum_congr rfl fun j _ => ?_
  rw [sum_halves (fun k => z k * w k j)]

/-! ## The decoder over whole arrays -/

/-- The scores of all 500000 edges of one relation: `S`, `D` the gathered source and destination rows (one row per
    edge), `W` the first layer's 256 × 128 weight, `B` its bias, `U` the second layer's 128 × 1 weight, `C` its bias. -/
def decode (S D : (⟨2, ![500000, 128]⟩ : Shape).Idx → EReal) (W : (⟨2, ![256, 128]⟩ : Shape).Idx → EReal)
    (B : (⟨1, ![128]⟩ : Shape).Idx → EReal) (U : (⟨2, ![128, 1]⟩ : Shape).Idx → EReal) (C : (⟨1, ![1]⟩ : Shape).Idx → EReal)
    (e : Fin 500000) : EReal :=
  score (fun k => S (ix2 e k)) (fun k => D (ix2 e k)) (fun k j => W (ix2 (lo k) j)) (fun k j => W (ix2 (hi k) j))
    (fun j => B (ix1 j)) (fun j => U (ix2 j (0 : Fin 1))) (C (ix1 (0 : Fin 1)))

/-- The result array `[2, 500000, 1]`: relation 0's scores stacked on relation 1's. -/
def stacked (g0 g1 : Fin 500000 → EReal) : (⟨3, ![2, 500000, 1]⟩ : Shape).Idx → EReal :=
  fun i => if (i 0).val = 0 then g0 (i 1) else g1 (i 1)

end Cert.EdgeScore

end
-- ==== Proof.KernelRow.lean ====
/-
  The kernel body at one row of its block is the edge's score.

  At a grid point the body holds a block of 10000 source rows `x0`, the matching 10000 destination rows `x1`, the upper and
  lower halves `x2`, `x3` of the relation's first-layer weight, its bias `x4`, the second layer's weight column `x5` and
  its bias `x6` (each with a leading axis of extent one). It forms two matrix products into zero accumulators, adds them,
  adds the bias along rows, clamps at zero, takes a third matrix product into a zero accumulator and adds the second bias.
  A matrix product into a zero accumulator read at `(p, j)` is the sum over `k` of left `(p, k)` times right `(k, j)`; the
  format changes between the steps are the identity on extended reals. So row `p` of the result is `score` of row `p` of
  `x0` and row `p` of `x1`.
-/
import proofs.«112337_j5488968204770_2_alg».proof.Proof.Gen.KernelIdeal.Skeleton
import proofs.«112337_j5488968204770_2_alg».proof.Proof.EdgeScore
import Idealize.ShloMosaic.Lib.Pipeline.Value
import Idealize.ShloMosaic.Lib.ValueIdx
import Idealize.ShloMosaic.PureOps.Ideal.Laws

noncomputable section

open scoped BigOperators

namespace Cert.KernelRow

open Cert.KernelIdeal Cert.KernelIdeal.Gen
open Idealize.ShloMosaic Idealize.ShloMosaic.ValueIdx Cert.EdgeScore

/-! ## The two matrix products read at an index -/

/-! The operand indices of the two products' dimension records, coordinate by coordinate: at output index `i` and
    contraction index `q` the left operand is read at `(i 0, q)` and the right at `(q, i 1)`. -/

theorem hidden_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem hidden_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem hidden_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem hidden_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem out_lhs0 (i : S10000x1.Idx) (q : dot_S10000x128_S128x1_S10000x1_1_0_0_1_n_n.contr.Idx) : (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide),
    dif_pos (show (0 : Fin S10000x128.rank) ∈ dot_S10000x128_S128x1_S10000x1_1_0_0_1_n_n.lhsNonContracting by decide)]
  rfl
theorem out_lhs1 (i : S10000x1.Idx) (q : dot_S10000x128_S128x1_S10000x1_1_0_0_1_n_n.contr.Idx) : (dot_S10000x128_S128x1_S10000x1_1_0_0_1_n_n.lhsIdx i q 1).val = (q ⟨0, by decide⟩).val :=
  dot_S10000x128_S128x1_S10000x1_1_0_0_1_n_n.lhsIdx_val_of_single rfl i q
theorem out_rhs0 (i : S10000x1.Idx) (q : dot_S10000x128_S128x1_S10000x1_1_0_0_1_n_n.contr.Idx) : (dot_S10000x128_S128x1_S10000x1_1_0_0_1_n_n.rhsIdx i q 0).val = (q ⟨0, by decide⟩).val :=
  dot_S10000x128_S128x1_S10000x1_1_0_0_1_n_n.rhsIdx_val_of_single rfl i q
theorem out_rhs1 (i : S10000x1.Idx) (q : dot_S10000x128_S128x1_S10000x1_1_0_0_1_n_n.contr.Idx) : (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide),
    dif_pos (show (1 : Fin S128x1.rank) ∈ dot_S10000x128_S128x1_S10000x1_1_0_0_1_n_n.rhsNonContracting by decide)]
  rfl

/-- A 10000 × 128 by 128 × 128 product into a zero accumulator, at `(p, j)`. -/
theorem product_hidden (l : FVec Ideal S10000x128 .bf16) (r : FVec Ideal S128x128 .bf16) (p : Fin 10000) (j : Fin 128) :
    matmul dot_S10000x128_S128x128_S10000x128_1_0_0_1_n_n none l r (constant S10000x128 .f32 0x00000000#32) (ix2 p j)
      = ∑ k : Fin 128, l (ix2 p k) * r (ix2 k j) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k :=
    funext fun a => Fin.ext (by
      match a with
      | ⟨0, _⟩ => exact hidden_lhs0 _ _
      | ⟨1, _⟩ => exact (hidden_lhs1 _ _).trans hk)
  have er : dot_S10000x128_S128x128_S10000x128_1_0_0_1_n_n.rhsIdx (ix2 p j) ((contrEquiv1 dot_S10000x128_S128x128_S10000x128_1_0_0_1_n_n 128 rfl rfl).symm k) = ix2 k j :=
    funext fun a => Fin.ext (by
      match a with
      | ⟨0, _⟩ => exact (hidden_rhs0 _ _).trans hk
      | ⟨1, _⟩ => exact hidden_rhs1 _ _)
  rw [el, er]

/-- A 10000 × 128 by 128 × 1 product into a zero accumulator, at `(p, 0)`. -/
theorem product_out (l : FVec Ideal S10000x128 .bf16) (r : FVec Ideal S128x1 .bf16) (p : Fin 10000) :
    matmul dot_S10000x128_S128x1_S10000x1_1_0_0_1_n_n none l r (constant S10000x1 .f32 0x00000000#32) (ix2 p (0 : Fin 1))
      = ∑ k : Fin 128, l (ix2 p k) * r (ix2 k (0 : Fin 1)) := by
  simp only [matmul]
  rw [Ideal.matmul_constant_zero_apply, ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p (0 : Fin 1)) ((contrEquiv1 dot_S10000x128_S128x1_S10000x1_1_0_0_1_n_n 128 rfl rfl).symm k) = ix2 p k :=
    funext fun a => Fin.ext (by
      match a with
      | ⟨0, _⟩ => exact out_lhs0 _ _
      | ⟨1, _⟩ => exact (out_lhs1 _ _).trans hk)
  have er : dot_S10000x128_S128x1_S10000x1_1_0_0_1_n_n.rhsIdx (ix2 p (0 : Fin 1)) ((contrEquiv1 dot_S10000x128_S128x1_S10000x1_1_0_0_1_n_n 128 rfl rfl).symm k) = ix2 k (0 : Fin 1) :=
    funext fun a => Fin.ext (by
      match a with
      | ⟨0, _⟩ => exact (out_rhs0 _ _).trans hk
      | ⟨1, _⟩ => exact out_rhs1 _ _)
  rw [el, er]

/-! ## Dropping a block's leading unit axis, and spreading a bias along the rows -/

/-- Row `p`, entry `k` of a block of embedding rows with its leading unit axis dropped. -/
theorem rows_at (v : FVec Ideal S1x10000x128 .bf16) (p : Fin 10000) (k : Fin 128) :
    shapeCast S10000x128 v shapeCasts_S1x10000x128_S10000x128 (ix2 p k) = v (ix3 (0 : Fin 1) p k) :=
  shapeCast_apply v _ (ix2 p k) (ix3 (0 : Fin 1) p k) (by
    rw [Shape.rowMajor_val_three, Shape.rowMajor_val_two]
    show ((0 : Nat) * 10000 + p.val) * 128 + k.val = p.val * 128 + k.val; omega)

/-- Entry `(k, j)` of a 128 × 128 weight block with its leading unit axis dropped. -/
theorem weight_at (v : FVec Ideal S1x128x128 .f32) (k j : Fin 128) :
    shapeCast S128x128 v shapeCasts_S1x128x128_S128x128 (ix2 k j) = v (ix3 (0 : Fin 1) k j) :=
  shapeCast_apply v _ (ix2 k j) (ix3 (0 : Fin 1) k j) (by
    rw [Shape.rowMajor_val_three, Shape.rowMajor_val_two]
    show ((0 : Nat) * 128 + k.val) * 128 + j.val = k.val * 128 + j.val; omega)

/-- Entry `j` of the first bias block with its leading unit axis dropped. -/
theorem bias_at (v : FVec Ideal S1x1x128 .f32) (j : Fin 128) :
    shapeCast S1x128 v shapeCasts_S1x1x128_S1x128 (ix2 (0 : Fin 1) j) = v (ix3 (0 : Fin 1) (0 : Fin 1) j) :=
  shapeCast_apply v _ (ix2 (0 : Fin 1) j) (ix3 (0 : Fin 1) (0 : Fin 1) j) (by
    rw [Shape.rowMajor_val_three, Shape.rowMajor_val_two]
    show ((0 : Nat) * 1 + 0) * 128 + j.val = 0 * 128 + j.val; omega)

/-- Entry `j` of the second layer's weight column with its leading unit axis dropped. -/
theorem column_at (v : FVec Ideal S1x128x1 .f32) (j : Fin 128) :
    shapeCast S128x1 v shapeCasts_S1x128x1_S128x1 (ix2 j (0 : Fin 1)) = v (ix3 (0 : Fin 1) j (0 : Fin 1)) :=
  shapeCast_apply v _ (ix2 j (0 : Fin 1)) (ix3 (0 : Fin 1) j (0 : Fin 1)) (by
    rw [Shape.rowMajor_val_three, Shape.rowMajor_val_two]
    show ((0 : Nat) * 128 + j.val) * 1 + 0 = j.val * 1 + 0; omega)

/-- The second bias with its leading unit axis dropped. -/
theorem scalar_at (v : FVec Ideal S1x1x1 .f32) :
    shapeCast S1x1 v shapeCasts_S1x1x1_S1x1 (ix2 (0 : Fin 1) (0 : Fin 1)) = v (ix3 (0 : Fin 1) (0 : Fin 1) (0 : Fin 1)) :=
  shapeCast_apply v _ (ix2 (0 : Fin 1) (0 : Fin 1)) (ix3 (0 : Fin 1) (0 : Fin 1) (0 : Fin 1)) (by
    rw [Shape.rowMajor_val_three, Shape.rowMajor_val_two]
    show ((0 : Nat) * 1 + 0) * 1 + 0 = 0 * 1 + 0; rfl)

/-- The first bias spread along the 10000 rows: row `p` reads the bias row. -/
theorem bias_rows (v : FVec Ideal S1x128 .f32) (p : Fin 10000) (j : Fin 128) :
    broadcastTo S10000x128 v broadcasts_S1x128_S10000x128 (ix2 p j) = v (ix2 (0 : Fin 1) j) :=
  broadcastTo_apply v _ (ix2 p j) (ix2 (0 : Fin 1) j) (fun a => by
    match a with
    | ⟨0, _⟩ => show (0 : Nat) = if (1 : Nat) = 1 then 0 else _; rw [if_pos rfl]
    | ⟨1, _⟩ => show j.val = if (128 : Nat) = 1 then 0 else j.val; rw [if_neg (by decide)])

/-- The second bias spread along the 10000 rows. -/
theorem scalar_rows (v : FVec Ideal S1x1 .f32) (p : Fin 10000) :
    broadcastTo S10000x1 v broadcasts_S1x1_S10000x1 (ix2 p (0 : Fin 1)) = v (ix2 (0 : Fin 1) (0 : Fin 1)) :=
  broadcastTo_apply v _ (ix2 p (0 : Fin 1)) (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-! ## The body's result at a row -/

/-- Row `p` of the body's result is the score of the edge whose source row is row `p` of `x0` and whose destination row is
    row `p` of `x1`, under the block's layer parameters. -/
theorem pay_row (x0 x1 : FVec Ideal S1x10000x128 .bf16) (x2 x3 : FVec Ideal S1x128x128 .f32) (x4 : FVec Ideal S1x1x128 .f32)
    (x5 : FVec Ideal S1x128x1 .f32) (x6 : FVec Ideal S1x1x1 .f32) (p : Fin 10000) :
    k0_pay2 (F := Ideal) x0 x1 x2 x3 x4 x5 x6 (ix2 p (0 : Fin 1))
      = score (fun k => x0 (ix3 (0 : Fin 1) p k)) (fun k => x1 (ix3 (0 : Fin 1) p k))
          (fun k j => x2 (ix3 (0 : Fin 1) k j)) (fun k j => x3 (ix3 (0 : Fin 1) k j))
          (fun j => x4 (ix3 (0 : Fin 1) (0 : Fin 1) j)) (fun j => x5 (ix3 (0 : Fin 1) j (0 : Fin 1)))
          (x6 (ix3 (0 : Fin 1) (0 : Fin 1) (0 : Fin 1))) := by
  unfold k0_pay2 score
  refine (congrArg₂ (· + ·) (product_out _ _ p) (scalar_rows _ p)).trans ?_
  refine congrArg₂ (· + ·) (Finset.sum_congr rfl fun j _ => ?_) (scalar_at x6)
  refine congrArg₂ (· * ·) ?_ (column_at x5 j)
  refine congrArg₂ max ?_ Ideal.ofBits_zero_f32
  refine congrArg₂ (· + ·) (congrArg₂ (· + ·) ?_ ?_) ((bias_rows _ p j).trans (bias_at x4 j))
  · refine (product_hidden _ _ p j).trans (Finset.sum_congr rfl fun k _ => ?_)
    exact congrArg₂ (· * ·) (rows_at x0 p k) (weight_at x2 k j)
  · refine (product_hidden _ _ p j).trans (Finset.sum_congr rfl fun k _ => ?_)
    exact congrArg₂ (· * ·) (rows_at x1 p k) (weight_at x3 k j)

end Cert.KernelRow

end
-- ==== Proof.KernelScores.lean ====
/-
  The kernel's result array is the stacked decoder scores.

  The grid has 2 × 50 points: point `(r, b)` handles edges `10000·b … 10000·b + 9999` of relation `r`. Its source and
  destination blocks are those 10000 rows of relation `r`'s gathered rows; its weight, bias and second-layer blocks are
  relation `r`'s own (they do not move with `b`). Row `p` of what the body leaves is therefore the score of edge
  `10000·b + p` of relation `r`, and that is block `(r, b)` of the stacked scores. The 100 blocks tile the
  `[2, 500000, 1]` result: index `(r, e, 0)` lies in block `(r, e / 10000)`.
-/
import proofs.«112337_j5488968204770_2_alg».proof.Proof.Gen.KernelIdeal.Value
import proofs.«112337_j5488968204770_2_alg».proof.Proof.KernelWindows
import proofs.«112337_j5488968204770_2_alg».proof.Proof.KernelRow
import proofs.«112337_j5488968204770_2_alg».proof.Proof.EdgeScore
import Idealize.ShloMosaic.Lib.Pipeline.Value
import Idealize.ShloMosaic.Lib.ValueIdx

noncomputable section

open scoped BigOperators

namespace Cert.KernelScores

open Cert.KernelIdeal Cert.KernelIdeal.Gen Cert.KernelWindows Cert.KernelRow Cert.Stacked Cert.EdgeScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The result -/

/-- Relation 0's scores: gene rows against disease rows. -/
abbrev scoresGD : Fin 500000 → EReal :=
  decode (srcGD m c) (dstGD m c) (w1GD m c) (b1GD m c) (w2GD m c) (b2GD m c)
/-- Relation 1's scores: gene rows against gene rows. -/
abbrev scoresGG : Fin 500000 → EReal :=
  decode (srcGG m c) (dstGG m c) (w1GG m c) (b1GG m c) (w2GG m c) (b2GG m c)

/-- The result array: relation 0's scores stacked on relation 1's. -/
def result : S2x500000x1.Idx → EReal := stacked (scoresGD m c) (scoresGG m c)

/-- The stacked scores at an index of relation 0. -/
theorem stacked_at0 (g0 g1 : Fin 500000 → EReal) (i : (⟨3, ![2, 500000, 1]⟩ : Shape).Idx) (e : Fin 500000)
    (h0 : (i 0).val = 0) (h1 : (i 1).val = e.val) : stacked g0 g1 i = g0 e := by
  unfold stacked
  rw [if_pos h0]
  exact congrArg g0 (Fin.ext h1)

/-- The stacked scores at an index of relation 1. -/
theorem stacked_at1 (g0 g1 : Fin 500000 → EReal) (i : (⟨3, ![2, 500000, 1]⟩ : Shape).Idx) (e : Fin 500000)
    (h0 : (i 0).val = 1) (h1 : (i 1).val = e.val) : stacked g0 g1 i = g1 e := by
  unfold stacked
  rw [if_neg (by omega)]
  exact congrArg g1 (Fin.ext h1)

/-- Two scores agree when their seven ingredients do. -/
theorem score_congr {s s' d d' : Fin 128 → EReal} {ws ws' wd wd' : Fin 128 → Fin 128 → EReal} {b b' w2 w2' : Fin 128 → EReal}
    {b2 b2' : EReal} (h1 : s = s') (h2 : d = d') (h3 : ws = ws') (h4 : wd = wd') (h5 : b = b') (h6 : w2 = w2')
    (h7 : b2 = b2') : score s d ws wd b w2 b2 = score s' d' ws' wd' b' w2' b2' := by
  subst h1 h2 h3 h4 h5 h6 h7; rfl

/-! ## The pieces of the weights and biases, read at an index -/

/-- The upper half of a first-layer weight at `(k, j)` is the weight's row `k`. -/
theorem upper_at (W : S256x128.Idx → EReal) (k j : Fin 128) :
    extractStridedSlice S128x128 ![0, 0] W slices_S256x128_S128x128_0_0 (ix2 k j) = W (ix2 (lo k) j) :=
  extractStridedSlice_apply ![0, 0] W slices_S256x128_S128x128_0_0 (ix2 k j) (ix2 (lo k) j) (fun a => by
    match a with
    | ⟨0, _⟩ => show (lo k).val = 0 + k.val; rw [lo_val]; omega
    | ⟨1, _⟩ => show j.val = 0 + j.val; omega)

/-- The lower half of a first-layer weight at `(k, j)` is the weight's row `128 + k`. -/
theorem lower_at (W : S256x128.Idx → EReal) (k j : Fin 128) :
    extractStridedSlice S128x128 ![128, 0] W slices_S256x128_S128x128_128_0 (ix2 k j) = W (ix2 (hi k) j) :=
  extractStridedSlice_apply ![128, 0] W slices_S256x128_S128x128_128_0 (ix2 k j) (ix2 (hi k) j) (fun a => by
    match a with
    | ⟨0, _⟩ => show (hi k).val = 128 + k.val; rfl
    | ⟨1, _⟩ => show j.val = 0 + j.val; omega)

/-- A first bias laid out as one row, at `(0, j)`. -/
theorem bias_row_at (B : S128.Idx → EReal) (j : Fin 128) :
    shapeCast S1x128 B shapeCasts_S128_S1x128 (ix2 (0 : Fin 1) j) = B (ix1 j) :=
  shapeCast_apply B shapeCasts_S128_S1x128 (ix2 (0 : Fin 1) j) (ix1 j) (by
    rw [Shape.rowMajor_val_one, Shape.rowMajor_val_two]
    show j.val = 0 * 128 + j.val; omega)

/-- A second bias laid out as a 1 × 1 array. -/
theorem bias_one_at (C : S1.Idx → EReal) :
    shapeCast S1x1 C shapeCasts_S1_S1x1 (ix2 (0 : Fin 1) (0 : Fin 1)) = C (ix1 (0 : Fin 1)) :=
  shapeCast_apply C shapeCasts_S1_S1x1 (ix2 (0 : Fin 1) (0 : Fin 1)) (ix1 (0 : Fin 1)) (by
    rw [Shape.rowMajor_val_one, Shape.rowMajor_val_two]
    show (0 : Nat) = 0 * 1 + 0; rfl)

/-- The body's result given back its leading unit axis, at `(0, p, 0)`. -/
theorem lifted_at (v : FVec Ideal S10000x1 .f32) (p : Fin 10000) :
    k0_pay1 v (ix3 (0 : Fin 1) p (0 : Fin 1)) = v (ix2 p (0 : Fin 1)) :=
  shapeCast_apply v shapeCasts_S10000x1_S1x10000x1 (ix3 (0 : Fin 1) p (0 : Fin 1)) (ix2 p (0 : Fin 1)) (by
    rw [Shape.rowMajor_val_two, Shape.rowMajor_val_three]
    show p.val * 1 + 0 = ((0 : Nat) * 10000 + p.val) * 1 + 0; omega)

/-! ## The index maps over the grid -/

theorem hz : (![0, 0, 0] : Fin 3 → Nat) = fun _ => 0 := funext fun a => by fin_cases a <;> rfl

/-- The printed index maps, decided over the 100 grid points: the row windows move with the output's block, the
    parameter windows only with its relation, and the output's block indices stay in their ranges. -/
theorem idx_facts : ∀ t : Fin cfg0.N,
    win0_0.index t (0 : Fin 3) = win0_7.index t (0 : Fin 3) ∧ win0_0.index t (1 : Fin 3) = win0_7.index t (1 : Fin 3)
      ∧ win0_0.index t (2 : Fin 3) = 0
    ∧ win0_1.index t (0 : Fin 3) = win0_7.index t (0 : Fin 3) ∧ win0_1.index t (1 : Fin 3) = win0_7.index t (1 : Fin 3)
      ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (0 : Fin 3) ≤ 1 ∧ win0_7.index t (1 : Fin 3) ≤ 49 ∧ win0_7.index t (2 : Fin 3) = 0 :=
  (by decide +kernel : ∀ t : Fin grid0.N, _)

/-- Every block `(r, b)` of the result is some point's. -/
theorem idx_onto : ∀ (r : Fin 2) (b : Fin 50), ∃ t : Fin cfg0.N, win0_7.index t = ![r.val, b.val, 0] :=
  (by decide +kernel : ∀ (r : Fin 2) (b : Fin 50), ∃ t : Fin grid0.N, win0_7.index t = ![r.val, b.val, 0])

/-! ## A pair's member by relation -/

/-- Relation `r`'s member of a pair: the first for relation 0, the second otherwise. -/
def pick {β : Type} (r : Nat) (x y : β) : β := if r = 0 then x else y

theorem pick_zero {β : Type} (x y : β) : pick 0 x y = x := if_pos rfl
theorem pick_one {β : Type} (x y : β) : pick 1 x y = y := if_neg (by decide)

/-- A stack read at an index of relation `r`. -/
theorem stackOf_pick {a b : Nat} {α : Type}
    (hb : (⟨2, ![a, b]⟩ : Shape).BroadcastsInDim ⟨3, ![1, a, b]⟩ (![1, 2] : Fin 2 → Fin 3))
    (hc : Shape.Concatenates [(⟨3, ![1, a, b]⟩ : Shape), ⟨3, ![1, a, b]⟩] ⟨3, ![2, a, b]⟩ 0)
    (x y : (⟨2, ![a, b]⟩ : Shape).Idx → α) (i : (⟨3, ![2, a, b]⟩ : Shape).Idx) (r : Nat) (p : Fin a) (q : Fin b)
    (hr : r ≤ 1) (h0 : (i 0).val = r) (h1 : (i 1).val = p.val) (h2 : (i 2).val = q.val) :
    stackOf hb hc x y i = pick r x y (ix2 p q) := by
  rcases (show r = 0 ∨ r = 1 by omega) with rfl | rfl
  · rw [pick_zero]; exact stackOf_at0 hb hc x y i p q h0 h1 h2
  · rw [pick_one]; exact stackOf_at1 hb hc x y i p q h0 h1 h2

/-- The stacked scores read at an index of relation `r`. -/
theorem stacked_pick (g0 g1 : Fin 500000 → EReal) (i : (⟨3, ![2, 500000, 1]⟩ : Shape).Idx) (r : Nat) (e : Fin 500000)
    (hr : r ≤ 1) (h0 : (i 0).val = r) (h1 : (i 1).val = e.val) : stacked g0 g1 i = pick r g0 g1 e := by
  rcases (show r = 0 ∨ r = 1 by omega) with rfl | rfl
  · rw [pick_zero]; exact stacked_at0 g0 g1 i e h0 h1
  · rw [pick_one]; exact stacked_at1 g0 g1 i e h0 h1

/-! ## What each window's block holds at a point

Point `t`'s block of window `w` is the window's array read through the block's rectangle: coordinate `a` of the array
index under block index `x` is `(index of the block on axis a) × (block extent on axis a) + x a`. -/

/-- Source rows: row `p` of the block is gathered row `e` of the point's relation, `e` the block's first edge plus `p`. -/
theorem src_block (t : Fin cfg0.N) (r : Nat) (p : Fin 10000) (k : Fin 128) (e : Fin 500000) (hr : r ≤ 1)
    (h0 : win0_0.index t (0 : Fin 3) = r) (h1 : win0_0.index t (1 : Fin 3) * 10000 + p.val = e.val)
    (h2 : win0_0.index t (2 : Fin 3) = 0) :
    (iblk m c 0 t : S1x10000x128.Idx → EReal) (ix3 (0 : Fin 1) p k) = pick r (srcGD m c) (srcGG m c) (ix2 e k) := by
  unfold iblk
  rw [View.read_apply]
  show (V m c main_v40 : S2x500000x128.Idx → EReal) _ = _
  rw [source_rows]
  refine stackOf_pick _ _ _ _ _ r e k hr ?_ ?_ ?_
  · show win0_0.index t (0 : Fin 3) * 1 + 1 * (0 : Nat) = r; omega
  · show win0_0.index t (1 : Fin 3) * 10000 + 1 * p.val = e.val; omega
  · show win0_0.index t (2 : Fin 3) * 128 + 1 * k.val = k.val; omega

/-- Destination rows, likewise. -/
theorem dst_block (t : Fin cfg0.N) (r : Nat) (p : Fin 10000) (k : Fin 128) (e : Fin 500000) (hr : r ≤ 1)
    (h0 : win0_1.index t (0 : Fin 3) = r) (h1 : win0_1.index t (1 : Fin 3) * 10000 + p.val = e.val)
    (h2 : win0_1.index t (2 : Fin 3) = 0) :
    (iblk m c 1 t : S1x10000x128.Idx → EReal) (ix3 (0 : Fin 1) p k) = pick r (dstGD m c) (dstGG m c) (ix2 e k) := by
  unfold iblk
  rw [View.read_apply]
  show (V m c main_v43 : S2x500000x128.Idx → EReal) _ = _
  rw [dest_rows]
  refine stackOf_pick _ _ _ _ _ r e k hr ?_ ?_ ?_
  · show win0_1.index t (0 : Fin 3) * 1 + 1 * (0 : Nat) = r; omega
  · show win0_1.index t (1 : Fin 3) * 10000 + 1 * p.val = e.val; omega
  · show win0_1.index t (2 : Fin 3) * 128 + 1 * k.val = k.val; omega

/-- Upper weights: the relation's first-layer weight, rows 0 to 127. -/
theorem upper_block (t : Fin cfg0.N) (r : Nat) (k j : Fin 128) (hr : r ≤ 1)
    (h0 : win0_2.index t (0 : Fin 3) = r) (h1 : win0_2.index t (1 : Fin 3) = 0) (h2 : win0_2.index t (2 : Fin 3) = 0) :
    (iblk m c 2 t : S1x128x128.Idx → EReal) (ix3 (0 : Fin 1) k j) = pick r (w1GD m c) (w1GG m c) (ix2 (lo k) j) := by
  unfold iblk
  rw [View.read_apply]
  show (V m c main_v48 : S2x128x128.Idx → EReal) _ = _
  rw [upper_weights]
  refine (stackOf_pick _ _ _ _ _ r k j hr ?_ ?_ ?_).trans ?_
  · show win0_2.index t (0 : Fin 3) * 1 + 1 * (0 : Nat) = r; omega
  · show win0_2.index t (1 : Fin 3) * 128 + 1 * k.val = k.val; omega
  · show win0_2.index t (2 : Fin 3) * 128 + 1 * j.val = j.val; omega
  · unfold pick; split_ifs
    · exact upper_at _ k j
    · exact upper_at _ k j

/-- Lower weights: the relation's first-layer weight, rows 128 to 255. -/
theorem lower_block (t : Fin cfg0.N) (r : Nat) (k j : Fin 128) (hr : r ≤ 1)
    (h0 : win0_3.index t (0 : Fin 3) = r) (h1 : win0_3.index t (1 : Fin 3) = 0) (h2 : win0_3.index t (2 : Fin 3) = 0) :
    (iblk m c 3 t : S1x128x128.Idx → EReal) (ix3 (0 : Fin 1) k j) = pick r (w1GD m c) (w1GG m c) (ix2 (hi k) j) := by
  unfold iblk
  rw [View.read_apply]
  show (V m c main_v53 : S2x128x128.Idx → EReal) _ = _
  rw [lower_weights]
  refine (stackOf_pick _ _ _ _ _ r k j hr ?_ ?_ ?_).trans ?_
  · show win0_3.index t (0 : Fin 3) * 1 + 1 * (0 : Nat) = r; omega
  · show win0_3.index t (1 : Fin 3) * 128 + 1 * k.val = k.val; omega
  · show win0_3.index t (2 : Fin 3) * 128 + 1 * j.val = j.val; omega
  · unfold pick; split_ifs
    · exact lower_at _ k j
    · exact lower_at _ k j

/-- First bias: the relation's. -/
theorem bias1_block (t : Fin cfg0.N) (r : Nat) (j : Fin 128) (hr : r ≤ 1)
    (h0 : win0_4.index t (0 : Fin 3) = r) (h1 : win0_4.index t (1 : Fin 3) = 0) (h2 : win0_4.index t (2 : Fin 3) = 0) :
    (iblk m c 4 t : S1x1x128.Idx → EReal) (ix3 (0 : Fin 1) (0 : Fin 1) j) = pick r (b1GD m c) (b1GG m c) (ix1 j) := by
  unfold iblk
  rw [View.read_apply]
  show (V m c main_v58 : S2x1x128.Idx → EReal) _ = _
  rw [first_biases]
  refine (stackOf_pick _ _ _ _ _ r (0 : Fin 1) j hr ?_ ?_ ?_).trans ?_
  · show win0_4.index t (0 : Fin 3) * 1 + 1 * (0 : Nat) = r; omega
  · show win0_4.index t (1 : Fin 3) * 1 + 1 * (0 : Nat) = 0; omega
  · show win0_4.index t (2 : Fin 3) * 128 + 1 * j.val = j.val; omega
  · unfold pick; split_ifs
    · exact bias_row_at _ j
    · exact bias_row_at _ j

/-- Second-layer weight column: the relation's. -/
theorem weight2_block (t : Fin cfg0.N) (r : Nat) (j : Fin 128) (hr : r ≤ 1)
    (h0 : win0_5.index t (0 : Fin 3) = r) (h1 : win0_5.index t (1 : Fin 3) = 0) (h2 : win0_5.index t (2 : Fin 3) = 0) :
    (iblk m c 5 t : S1x128x1.Idx → EReal) (ix3 (0 : Fin 1) j (0 : Fin 1)) = pick r (w2GD m c) (w2GG m c) (ix2 j (0 : Fin 1)) := by
  unfold iblk
  rw [View.read_apply]
  show (V m c main_v61 : S2x128x1.Idx → EReal) _ = _
  rw [second_weights]
  refine stackOf_pick _ _ _ _ _ r j (0 : Fin 1) hr ?_ ?_ ?_
  · show win0_5.index t (0 : Fin 3) * 1 + 1 * (0 : Nat) = r; omega
  · show win0_5.index t (1 : Fin 3) * 128 + 1 * j.val = j.val; omega
  · show win0_5.index t (2 : Fin 3) * 1 + 1 * (0 : Nat) = 0; omega

/-- Second bias: the relation's. -/
theorem bias2_block (t : Fin cfg0.N) (r : Nat) (hr : r ≤ 1)
    (h0 : win0_6.index t (0 : Fin 3) = r) (h1 : win0_6.index t (1 : Fin 3) = 0) (h2 : win0_6.index t (2 : Fin 3) = 0) :
    (iblk m c 6 t : S1x1x1.Idx → EReal) (ix3 (0 : Fin 1) (0 : Fin 1) (0 : Fin 1)) = pick r (b2GD m c) (b2GG m c) (ix1 (0 : Fin 1)) := by
  unfold iblk
  rw [View.read_apply]
  show (V m c main_v66 : S2x1x1.Idx → EReal) _ = _
  rw [second_biases]
  refine (stackOf_pick _ _ _ _ _ r (0 : Fin 1) (0 : Fin 1) hr ?_ ?_ ?_).trans ?_
  · show win0_6.index t (0 : Fin 3) * 1 + 1 * (0 : Nat) = r; omega
  · show win0_6.index t (1 : Fin 3) * 1 + 1 * (0 : Nat) = 0; omega
  · show win0_6.index t (2 : Fin 3) * 1 + 1 * (0 : Nat) = 0; omega
  · unfold pick; split_ifs
    · exact bias_one_at _
    · exact bias_one_at _

/-! ## What a point writes back -/

/-- Point `t` writes back block `t` of the stacked scores: row `p` of the body's result is the score of the block's edge
    `p` under the point's relation. -/
theorem flushed_eq (t : Fin cfg0.N) :
    (dats m 0 c).flushed 7 t = ((cfg0.win 7).blk t).view.read (Elt Ideal) (result m c) := by
  show (cfg0.win 7).cut (grid0.coords t) ((dats m 0 c).after 7 t) = _
  rw [after0_7]
  unfold out0_7
  rw [View.canon_unit_zero hz]
  simp only [View.ld_unit_zero (S := S1x10000x128) hz, View.ld_unit_zero (S := S1x128x128) hz,
    View.ld_unit_zero (S := S1x1x128) hz, View.ld_unit_zero (S := S1x128x1) hz, View.ld_unit_zero (S := S1x1x1) hz]
  obtain ⟨a0, a1, a2, b0, b1, b2, c0, c1, c2, d0, d1, d2, e0, e1, e2, f0, f1, f2, g0, g1, g2, hr, hb, h72⟩ := idx_facts t
  funext y
  obtain ⟨z, p, z', rfl⟩ : ∃ (z : Fin 1) (p : Fin 10000) (z' : Fin 1), y = ix3 z p z' := ⟨y 0, y 1, y 2, eq_ix3 y⟩
  obtain rfl : z = 0 := Subsingleton.elim _ _
  obtain rfl : z' = 0 := Subsingleton.elim _ _
  have hp : p.val < 10000 := p.isLt
  have he : win0_7.index t (1 : Fin 3) * 10000 + p.val < 500000 := by omega
  show k0_pay1 (k0_pay2 (iblk m c 0 t) (iblk m c 1 t) (iblk m c 2 t) (iblk m c 3 t) (iblk m c 4 t) (iblk m c 5 t)
      (iblk m c 6 t)) (ix3 (0 : Fin 1) p (0 : Fin 1))
    = result m c (((cfg0.win 7).blk t).view.emb (ix3 (0 : Fin 1) p (0 : Fin 1)))
  refine (lifted_at _ p).trans ((pay_row _ _ _ _ _ _ _ p).trans ?_)
  have hres : result m c (((cfg0.win 7).blk t).view.emb (ix3 (0 : Fin 1) p (0 : Fin 1)))
      = pick (win0_7.index t (0 : Fin 3)) (scoresGD m c) (scoresGG m c) ⟨win0_7.index t (1 : Fin 3) * 10000 + p.val, he⟩ := by
    unfold result
    refine stacked_pick _ _ _ _ _ hr ?_ ?_
    · show win0_7.index t (0 : Fin 3) * 1 + 1 * (0 : Nat) = win0_7.index t (0 : Fin 3); omega
    · show win0_7.index t (1 : Fin 3) * 10000 + 1 * p.val = win0_7.index t (1 : Fin 3) * 10000 + p.val; omega
  rw [hres]
  refine (score_congr
    (funext fun k => src_block m c t _ p k ⟨win0_7.index t (1 : Fin 3) * 10000 + p.val, he⟩ hr a0 (by rw [a1]) a2)
    (funext fun k => dst_block m c t _ p k ⟨win0_7.index t (1 : Fin 3) * 10000 + p.val, he⟩ hr b0 (by rw [b1]) b2)
    (funext fun k => funext fun j => upper_block m c t _ k j hr c0 c1 c2)
    (funext fun k => funext fun j => lower_block m c t _ k j hr d0 d1 d2)
    (funext fun j => bias1_block m c t _ j hr e0 e1 e2)
    (funext fun j => weight2_block m c t _ j hr f0 f1 f2)
    (bias2_block m c t _ hr g0 g1 g2)).trans ?_
  rcases (show win0_7.index t (0 : Fin 3) = 0 ∨ win0_7.index t (0 : Fin 3) = 1 by omega) with h | h
  · rw [h]; simp only [pick_zero]; rfl
  · rw [h]; simp only [pick_one]; rfl

/-! ## The blocks tile the result -/

/-- An index of the result is in point `t`'s block iff each coordinate is in the block's range on its axis. -/
theorem mem_blk (t : Fin cfg0.N) (i : S2x500000x1.Idx) :
    i ∈ ((cfg0.win 7).blk t).view.set ↔ ∀ a : Fin 3, win0_7.index t a * S1x10000x1.size a ≤ (i a).val
      ∧ (i a).val < win0_7.index t a * S1x10000x1.size a + S1x10000x1.size a := by
  show i ∈ ((View.whole main_v67).slice (win0_7.rect t)).set ↔ _
  rw [View.set_slice_whole, Rect.mem_set_unit]
  exact Iff.rfl

/-- Index `(r, e, 0)` lies in the block of the point with block index `(r, e / 10000, 0)`. -/
theorem covered (i : S2x500000x1.Idx) :
    ∃ t : Fin cfg0.N, (cfg0.win 7).flush t = true ∧ i ∈ ((cfg0.win 7).blk t).view.set := by
  have hi0 : (i 0).val < 2 := (i 0).isLt
  have hi1 : (i 1).val < 500000 := (i 1).isLt
  have hi2 : (i 2).val < 1 := (i 2).isLt
  obtain ⟨t, ht⟩ := idx_onto ⟨(i 0).val, hi0⟩ ⟨(i 1).val / 10000, by omega⟩
  have q0 : win0_7.index t (0 : Fin 3) = (i 0).val := congrFun ht 0
  have q1 : win0_7.index t (1 : Fin 3) = (i 1).val / 10000 := congrFun ht 1
  have q2 : win0_7.index t (2 : Fin 3) = 0 := congrFun ht 2
  refine ⟨t, flush0_7 t, ?_⟩
  rw [mem_blk]
  intro a
  match a with
  | ⟨0, _⟩ =>
    show win0_7.index t (0 : Fin 3) * 1 ≤ (i 0).val ∧ (i 0).val < win0_7.index t (0 : Fin 3) * 1 + 1; omega
  | ⟨1, _⟩ =>
    show win0_7.index t (1 : Fin 3) * 10000 ≤ (i 1).val ∧ (i 1).val < win0_7.index t (1 : Fin 3) * 10000 + 10000; omega
  | ⟨2, _⟩ =>
    show win0_7.index t (2 : Fin 3) * 1 ≤ (i 2).val ∧ (i 2).val < win0_7.index t (2 : Fin 3) * 1 + 1; omega

/-! ## The result array and the run -/

/-- After the run the result array holds the stacked scores. -/
theorem final (c : Dev nD) : (dats m 0 c).arrAt 7 cfg0.N = result m c :=
  (dats m 0 c).arrAt_eq_of_cover 7 (result m c) (fun t _ => flushed_eq m c t) (covered)

/-- Every weakly fair execution of the kernel's program ends with the result array at the stacked scores and the
    arguments unchanged. -/
theorem run : θ_run defs (onTc (τ := τ) (main (F := Ideal))) ⟨m, fun _ => 0, ρ⟩ fun r => ∀ c : Dev nD,
      r.2.mem ((c : Thread nD τ).loc main_v67) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.KernelScores

end
-- ==== Proof.RefScores.lean ====
/-
  The reference's result array is the stacked decoder scores.

  For each of the two relations the reference gathers the source rows and the destination rows (one row of 128 per edge),
  joins them side by side into one row of 256, multiplies by the 256 × 128 first-layer weight, adds the bias, clamps at
  zero, multiplies by the 128 × 1 second-layer weight and adds the second bias. Read at edge `e` this is the edge's score
  with the first layer as ONE sum over the 256 joined entries; entry `k < 128` of the joined row is the source row's entry
  `k` and entry `128 + k` is the destination row's entry `k`, so the sum splits into the two halves (`score_of_concat`).
  The gathered rows themselves are never opened: they enter as whole arrays.
-/
import proofs.«112337_j5488968204770_2_alg».proof.Proof.Gen.ReferenceIdeal.Read
import proofs.«112337_j5488968204770_2_alg».proof.Proof.EdgeScore
import proofs.«112337_j5488968204770_2_alg».proof.Proof.Stacked
import Idealize.ShloMosaic.Lib.Pipeline.Value
import Idealize.ShloMosaic.Lib.ValueIdx
import Idealize.ShloMosaic.PureOps.Ideal.Laws

noncomputable section

open scoped BigOperators

namespace Cert.RefScores

open Cert.ReferenceIdeal Cert.ReferenceIdeal.Gen Cert.ReferenceIdeal.Read
open Idealize.ShloMosaic Idealize.ShloMosaic.ValueIdx Cert.EdgeScore

/-! ## The joined row -/

/-- Entry `k` of the first half of the joined row is the source row's entry `k`. -/
theorem joined_lo (S D : S500000x128.Idx → EReal) (e : Fin 500000) (k : Fin 128) :
    concatenate S500000x256 1 [⟨S500000x128, S⟩, ⟨S500000x128, D⟩] concatenates_S500000x128_S500000x128_S500000x256_d1 (ix2 e (lo k))
      = S (ix2 e k) :=
  concatenate_pair_apply_left (1 : Fin 2) S D _ (ix2 e (lo k)) rfl (ix2 e k)
    (fun b => by match b with | ⟨0, _⟩ => rfl | ⟨1, _⟩ => rfl)

/-- Entry `128 + k` of the joined row is the destination row's entry `k`. -/
theorem joined_hi (S D : S500000x128.Idx → EReal) (e : Fin 500000) (k : Fin 128) :
    concatenate S500000x256 1 [⟨S500000x128, S⟩, ⟨S500000x128, D⟩] concatenates_S500000x128_S500000x128_S500000x256_d1 (ix2 e (hi k))
      = D (ix2 e k) :=
  concatenate_pair_apply_right (1 : Fin 2) S D _ (ix2 e (hi k)) rfl rfl (ix2 e k)
    (fun b hb => by match b with | ⟨0, _⟩ => rfl | ⟨1, _⟩ => exact absurd rfl hb)
    (by show k.val + 128 = 128 + k.val; omega)

/-! ## One relation's scores, from the joined rows -/

/-- The two layers applied to joined rows `Z`, read at edge `e`: the score of the edge whose source and destination rows
    are the two halves of row `e` of `Z`. Stated over an arbitrary joined array so that it serves both relations. -/
theorem layers_apply (Z : S500000x256.Idx → EReal) (W : S256x128.Idx → EReal) (B : S128.Idx → EReal) (U : S128x1.Idx → EReal)
    (C : S1.Idx → EReal) (e : Fin 500000) :
    (∑ j : Fin 128, max ((∑ k : Fin 256, Z (ix2 e k) * W (ix2 k j)) + B (ix1 j)) 0 * U (ix2 j (0 : Fin 1))) + C (ix1 (0 : Fin 1))
      = score (fun k => Z (ix2 e (lo k))) (fun k => Z (ix2 e (hi k))) (fun k j => W (ix2 (lo k) j)) (fun k j => W (ix2 (hi k) j))
          (fun j => B (ix1 j)) (fun j => U (ix2 j (0 : Fin 1))) (C (ix1 (0 : Fin 1))) :=
  score_of_concat (fun k => Z (ix2 e k)) (fun k j => W (ix2 k j)) (fun j => B (ix1 j)) (fun j => U (ix2 j (0 : Fin 1))) (C (ix1 (0 : Fin 1)))

/-! ## The reference's two columns of scores -/

/-- Relation 0 (gene to disease): the reference's score column at edge `e` is the decoder's score over the gathered
    gene rows (source) and the gathered disease rows (destination). -/
theorem scores0 (x0 : (⟨S100000x128, .f32⟩ : BufTy).Contents (Elt Ideal)) (x1 : (⟨S20000x128, .f32⟩ : BufTy).Contents (Elt Ideal))
    (x2 : (⟨S2x500000, .i32⟩ : BufTy).Contents (Elt Ideal)) (x4 : (⟨S256x128, .f32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) (e : Fin 500000) :
    val_main_v28 (F := Ideal) x0 x1 x2 x4 x5 x6 x7 (ix2 e (0 : Fin 1))
      = decode (val_main_v8 (F := Ideal) x0 x2) (val_main_v17 (F := Ideal) x1 x2) x4 x5 x6 x7 e := by
  have hl : ∀ j : Fin 128, lidx_main_v25 (ix2 e (0 : Fin 1)) j = ix2 e j := fun j =>
    funext fun a => Fin.ext (by match a with | ⟨0, _⟩ => rfl | ⟨1, _⟩ => rfl)
  have hr : ∀ j : Fin 128, ridx_main_v25 (ix2 e (0 : Fin 1)) j = ix2 j (0 : Fin 1) := fun j =>
    funext fun a => Fin.ext (by match a with | ⟨0, _⟩ => rfl | ⟨1, _⟩ => rfl)
  have hl' : ∀ (j : Fin 128) (k : Fin 256), lidx_main_v19 (ix2 e j) k = ix2 e k := fun j k =>
    funext fun a => Fin.ext (by match a with | ⟨0, _⟩ => rfl | ⟨1, _⟩ => rfl)
  have hr' : ∀ (j : Fin 128) (k : Fin 256), ridx_main_v19 (ix2 e j) k = ix2 k j := fun j k =>
    funext fun a => Fin.ext (by match a with | ⟨0, _⟩ => rfl | ⟨1, _⟩ => rfl)
  have hb : ∀ j : Fin 128, idx_main_v20 (idx_main_v21 (ix2 e j)) = ix1 j := fun j =>
    funext fun a => Fin.ext (by match a with | ⟨0, _⟩ => rfl)
  have hc : idx_main_v26 (idx_main_v27 (ix2 e (0 : Fin 1))) = ix1 (0 : Fin 1) :=
    funext fun a => Fin.ext (by match a with | ⟨0, _⟩ => rfl)
  rw [val_main_v28_apply, val_main_v25_apply, val_main_v27_apply, val_main_v26_apply, hc]
  simp only [hl, hr, val_main_v24_apply, val_main_v22_apply, val_main_v19_apply, hl', hr', val_main_v21_apply,
    val_main_v20_apply, hb, val_main_v23_apply, val_main_cst_apply]
  show (∑ j : Fin 128, max ((∑ k : Fin 256, val_main_v18 (F := Ideal) x0 x1 x2 (ix2 e k) * x4 (ix2 k j)) + x5 (ix1 j))
      (Ideal.ofBits .f32 0x00000000#32) * x6 (ix2 j (0 : Fin 1))) + x7 (ix1 (0 : Fin 1)) = _
  rw [Ideal.ofBits_zero_f32, layers_apply]
  unfold decode val_main_v18
  simp only [joined_lo, joined_hi]

/-- Relation 1 (gene to gene): the same, with gene rows at both ends. -/
theorem scores1 (x0 : (⟨S100000x128, .f32⟩ : BufTy).Contents (Elt Ideal)) (x3 : (⟨S2x500000, .i32⟩ : BufTy).Contents (Elt Ideal))
    (x8 : (⟨S256x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) (e : Fin 500000) :
    val_main_v57 (F := Ideal) x0 x3 x8 x9 x10 x11 (ix2 e (0 : Fin 1))
      = decode (val_main_v37 (F := Ideal) x0 x3) (val_main_v46 (F := Ideal) x0 x3) x8 x9 x10 x11 e := by
  have hl : ∀ j : Fin 128, lidx_main_v54 (ix2 e (0 : Fin 1)) j = ix2 e j := fun j =>
    funext fun a => Fin.ext (by match a with | ⟨0, _⟩ => rfl | ⟨1, _⟩ => rfl)
  have hr : ∀ j : Fin 128, ridx_main_v54 (ix2 e (0 : Fin 1)) j = ix2 j (0 : Fin 1) := fun j =>
    funext fun a => Fin.ext (by match a with | ⟨0, _⟩ => rfl | ⟨1, _⟩ => rfl)
  have hl' : ∀ (j : Fin 128) (k : Fin 256), lidx_main_v48 (ix2 e j) k = ix2 e k := fun j k =>
    funext fun a => Fin.ext (by match a with | ⟨0, _⟩ => rfl | ⟨1, _⟩ => rfl)
  have hr' : ∀ (j : Fin 128) (k : Fin 256), ridx_main_v48 (ix2 e j) k = ix2 k j := fun j k =>
    funext fun a => Fin.ext (by match a with | ⟨0, _⟩ => rfl | ⟨1, _⟩ => rfl)
  have hb : ∀ j : Fin 128, idx_main_v49 (idx_main_v50 (ix2 e j)) = ix1 j := fun j =>
    funext fun a => Fin.ext (by match a with | ⟨0, _⟩ => rfl)
  have hc : idx_main_v55 (idx_main_v56 (ix2 e (0 : Fin 1))) = ix1 (0 : Fin 1) :=
    funext fun a => Fin.ext (by match a with | ⟨0, _⟩ => rfl)
  rw [val_main_v57_apply, val_main_v54_apply, val_main_v56_apply, val_main_v55_apply, hc]
  simp only [hl, hr, val_main_v53_apply, val_main_v51_apply, val_main_v48_apply, hl', hr', val_main_v50_apply,
    val_main_v49_apply, hb, val_main_v52_apply, val_main_cst_7_apply]
  show (∑ j : Fin 128, max ((∑ k : Fin 256, val_main_v47 (F := Ideal) x0 x3 (ix2 e k) * x8 (ix2 k j)) + x9 (ix1 j))
      (Ideal.ofBits .f32 0x00000000#32) * x10 (ix2 j (0 : Fin 1))) + x11 (ix1 (0 : Fin 1)) = _
  rw [Ideal.ofBits_zero_f32, layers_apply]
  unfold decode val_main_v47
  simp only [joined_lo, joined_hi]

/-! ## The result array -/

/-- The reference's result is relation 0's scores stacked on relation 1's. -/
theorem result_eq (x0 : (⟨S100000x128, .f32⟩ : BufTy).Contents (Elt Ideal)) (x1 : (⟨S20000x128, .f32⟩ : BufTy).Contents (Elt Ideal))
    (x2 x3 : (⟨S2x500000, .i32⟩ : BufTy).Contents (Elt Ideal)) (x4 : (⟨S256x128, .f32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) (x8 : (⟨S256x128, .f32⟩ : BufTy).Contents (Elt Ideal))
    (x9 : (⟨S128, .f32⟩ : BufTy).Contents (Elt Ideal)) (x10 : (⟨S128x1, .f32⟩ : BufTy).Contents (Elt Ideal))
    (x11 : (⟨S1, .f32⟩ : BufTy).Contents (Elt Ideal)) :
    val_main_v60 (F := Ideal) x0 x1 x2 x3 x4 x5 x6 x7 x8 x9 x10 x11
      = stacked (decode (val_main_v8 (F := Ideal) x0 x2) (val_main_v17 (F := Ideal) x1 x2) x4 x5 x6 x7)
          (decode (val_main_v37 (F := Ideal) x0 x3) (val_main_v46 (F := Ideal) x0 x3) x8 x9 x10 x11) := by
  funext i
  obtain ⟨r, e, z, rfl⟩ : ∃ (r : Fin 2) (e : Fin 500000) (z : Fin 1), i = ix3 r e z := ⟨i 0, i 1, i 2, eq_ix3 i⟩
  obtain rfl : z = 0 := Subsingleton.elim _ _
  have hr : r = 0 ∨ r = 1 := by fin_cases r; exacts [Or.inl rfl, Or.inr rfl]
  unfold val_main_v60 val_main_v58 val_main_v59 stacked
  rcases hr with rfl | rfl
  · rw [if_pos (show ((ix3 (0 : Fin 2) e (0 : Fin 1) : (⟨3, ![2, 500000, 1]⟩ : Shape).Idx) 0).val = 0 from rfl)]
    exact (Cert.Stacked.stack_zero _ _ _ _ e 0).trans (scores0 x0 x1 x2 x4 x5 x6 x7 e)
  · rw [if_neg (show ¬((ix3 (1 : Fin 2) e (0 : Fin 1) : (⟨3, ![2, 500000, 1]⟩ : Shape).Idx) 0).val = 0 from
      (by decide : ¬((1 : Fin 2).val = 0)))]
    exact (Cert.Stacked.stack_one _ _ _ _ e 0).trans (scores1 x0 x3 x8 x9 x10 x11 e)

end Cert.RefScores

end
-- ==== Proof.lean ====
/-
  The edge decoder's kernel against its plain reference, on the extended reals.

  For each of two relations (gene to disease, gene to gene) and each of 500000 edges, both programs gather the edge's source
  and destination embedding rows (128 entries each) and score the edge by a two-layer perceptron:

      score = ∑ j < 128, max (∑ k < 256, z k · W1 k j + b1 j) 0 · w2 j + b2,      z = source row ++ destination row.

  The reference joins the two rows and takes one product with the 256 × 128 weight. The kernel never joins them: it takes
  the product of the source rows with the upper 128 rows of the weight, the product of the destination rows with the lower
  128 rows, and adds. A sum over 256 terms is the sum over its first 128 plus the sum over its last 128 in any commutative
  monoid, so the two agree on the extended reals with no appeal to finiteness; the changes of float format on the kernel's
  side are the identity there, and the only literals on either side are zeros. Both programs normalise the edge indices
  and gather in the same way, so the gathered rows enter as the same arrays on both sides and are never opened.

  The modules: EdgeScore (the score and the splitting of the sum), Stacked (two arrays stacked along a new leading axis),
  RefScores (the reference's result is the stacked scores), KernelRow (the kernel body at one row is the score),
  KernelWindows (what each of the kernel's operands holds), KernelScores (each grid point writes its block of the stacked
  scores, and the blocks tile the result). The three frames are the generated ones; nothing was idealized by rewriting, so
  the preservation claim is trivial.
-/
import proofs.«112337_j5488968204770_2_alg».proof.Defs
import proofs.«112337_j5488968204770_2_alg».proof.Proof.Gen.Kernel
import proofs.«112337_j5488968204770_2_alg».proof.Proof.Gen.Kernel.Skeleton
import proofs.«112337_j5488968204770_2_alg».proof.Proof.Gen.Kernel.Launch
import proofs.«112337_j5488968204770_2_alg».proof.Proof.Gen.Kernel.Points
import proofs.«112337_j5488968204770_2_alg».proof.Proof.Gen.Kernel.Frame
import proofs.«112337_j5488968204770_2_alg».proof.Proof.Gen.KernelIdeal
import proofs.«112337_j5488968204770_2_alg».proof.Proof.Gen.KernelIdeal.Skeleton
import proofs.«112337_j5488968204770_2_alg».proof.Proof.Gen.KernelIdeal.Launch
import proofs.«112337_j5488968204770_2_alg».proof.Proof.Gen.KernelIdeal.Points
import proofs.«112337_j5488968204770_2_alg».proof.Proof.Gen.KernelIdeal.Frame
import proofs.«112337_j5488968204770_2_alg».proof.Proof.Gen.ReferenceIdeal
import proofs.«112337_j5488968204770_2_alg».proof.Proof.Gen.Pre_finite_inputs
import proofs.«112337_j5488968204770_2_alg».proof.Proof.Gen.KernelIdeal.Value
import proofs.«112337_j5488968204770_2_alg».proof.Proof.Gen.ReferenceIdeal.Run
import proofs.«112337_j5488968204770_2_alg».proof.Proof.Gen.ReferenceIdeal.Read
import proofs.«112337_j5488968204770_2_alg».proof.Proof.KernelScores
import proofs.«112337_j5488968204770_2_alg».proof.Proof.RefScores
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the stacked scores of the two relations' edges:
    the kernel block by block, the reference through the joined rows. -/
theorem algebraic : Cert.algebraic_KernelIdeal_ReferenceIdeal := by
  intro m ρ m' ρ' _ hagree
  refine ⟨fun c => Cert.KernelScores.result m c, Cert.KernelScores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.RefScores.result_eq]
  obtain ⟨e0, e1, e2, e3, e4, e5, e6, e7, e8, e9, e10, e11⟩ := hagree c
  rw [e0, e1, e2, e3, e4, e5, e6, e7, e8, e9, e10, e11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
